-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S2x64x16 : Shape := ⟨3, ![2, 64, 16]⟩
abbrev S16 : Shape := ⟨1, ![16]⟩
abbrev S2x16x40 : Shape := ⟨3, ![2, 16, 40]⟩
abbrev S40 : Shape := ⟨1, ![40]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2x64x16 : S_.BroadcastsInDim S2x64x16 (![] : Fin 0 → Fin S2x64x16.rank)
  reducesTo_S2x64x16_S_d0_1_2 : S2x64x16.ReducesTo [0, 1, 2] S_
  bcast_S_S16 : S_.BroadcastsInDim S16 (![] : Fin 0 → Fin S16.rank)
  reducesTo_S16_S_d0 : S16.ReducesTo [0] S_
  bcast_S_S2x16x40 : S_.BroadcastsInDim S2x16x40 (![] : Fin 0 → Fin S2x16x40.rank)
  reducesTo_S2x16x40_S_d0_1_2 : S2x16x40.ReducesTo [0, 1, 2] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S2x16x40 .f32) (main_arg5 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S2x16x40 .f32 := Host.absf main_arg4
  let main_cst_6 : FVec F S_ .f32 := constant S_ .f32 0x7F800000#32
  let main_v20 : FVec F S2x16x40 .f32 := broadcastInDim S2x16x40 ![] bcast_S_S2x16x40 main_cst_6
  let main_v21 : IVec S2x16x40 1 := cmpf .olt main_v19 main_v20
  let main_c_7 : IVec S_ 1 := constantI S_ 1 1#1
  let main_v22 : IVec S_ 1 := (fun x v => Host.reduce IntOp.andi x v reducesTo_S2x16x40_S_d0_1_2 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x64 .f32) (main_arg1 : FVec F S1600000 .f32) (main_arg2 : FVec F S2x64x16 .f32) (main_arg3 : FVec F S16 .f32) (main_arg4 : FVec F S2x16x40 .f32) (main_arg5 : FVec F S40 .f32) (main_arg6 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x64x16 .f32 := Host.absf main_arg2
  let main_cst_2 : FVec F S_ .f32 := constant S_ .f32 0x7F800000#32
  let main_v10 : FVec F S2x64x16 .f32 := broadcastInDim S2x64x16 ![] bcast_S_S2x64x16 main_cst_2
  let main_v11 : IVec S2x64x16 1 := cmpf .olt main_v9 main_v10
  let main_c_3 : IVec S_ 1 := constantI S_ 1 1#1
  let main_v12 : IVec S_ 1 := (fun x v => Host.reduce IntOp.andi x v reducesTo_S2x64x16_S_d0_1_2 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S100000x64 : Shape := ⟨2, ![100000, 64]⟩
abbrev S1600000 : Shape := ⟨1, ![1600000]⟩
abbrev S2x64x16 : Shape := ⟨3, ![2, 64, 16]⟩
abbrev S16 : Shape := ⟨1, ![16]⟩
abbrev S2x16x40 : Shape := ⟨3, ![2, 16, 40]⟩
abbrev S40 : Shape := ⟨1, ![40]⟩
abbrev S2x1600000 : Shape := ⟨2, ![2, 1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x16 : Shape := ⟨2, ![1, 16]⟩
abbrev S100000x16 : Shape := ⟨2, ![100000, 16]⟩
abbrev S5000x64 : Shape := ⟨2, ![5000, 64]⟩
abbrev S5000x16 : Shape := ⟨2, ![5000, 16]⟩
abbrev S1x64x16 : Shape := ⟨3, ![1, 64, 16]⟩
abbrev S64x16 : Shape := ⟨2, ![64, 16]⟩
abbrev S1600000x16 : Shape := ⟨2, ![1600000, 16]⟩
abbrev S1x40 : Shape := ⟨2, ![1, 40]⟩
abbrev S100000x40 : Shape := ⟨2, ![100000, 40]⟩
abbrev S5000x40 : Shape := ⟨2, ![5000, 40]⟩
abbrev S1x16x40 : Shape := ⟨3, ![1, 16, 40]⟩
abbrev S16x40 : Shape := ⟨2, ![16, 40]⟩
abbrev S5000 : Shape := ⟨1, ![5000]⟩
abbrev S5000x1 : Shape := ⟨2, ![5000, 1]⟩

abbrev nBuf : Space → Nat
  | .hbm => 93
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S2x64x16, .f32⟩
  | .hbm, ⟨3, _⟩ => ⟨S16, .f32⟩
  | .hbm, ⟨4, _⟩ => ⟨S2x16x40, .f32⟩
  | .hbm, ⟨5, _⟩ => ⟨S40, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .f32⟩
  | .hbm, ⟨36, _⟩ => ⟨S1600000, .f32⟩
  | .hbm, ⟨37, _⟩ => ⟨S1600000, .f32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000, .f32⟩
  | .hbm, ⟨49, _⟩ => ⟨S1600000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x16, .f32⟩
  | .hbm, ⟨70, _⟩ => ⟨S100000x16, .f32⟩
  | .hbm, ⟨71, _⟩ => ⟨S1600000x1, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x16, .f32⟩
  | .hbm, ⟨81, _⟩ => ⟨S1600000x16, .f32⟩
  | .hbm, ⟨82, _⟩ => ⟨S1600000x16, .f32⟩
  | .hbm, ⟨83, _⟩ => ⟨S_, .f32⟩
  | .hbm, ⟨84, _⟩ => ⟨S100000x16, .f32⟩
  | .hbm, ⟨85, _⟩ => ⟨S1600000x1, .i32⟩
  | .hbm, ⟨86, _⟩ => ⟨S100000x16, .f32⟩
  | .hbm, ⟨87, _⟩ => ⟨S_, .f32⟩
  | .hbm, ⟨88, _⟩ => ⟨S100000x16, .f32⟩
  | .hbm, ⟨89, _⟩ => ⟨S100000x16, .f32⟩
  | .hbm, ⟨90, _⟩ => ⟨S100000x16, .f32⟩
  | .hbm, ⟨91, _⟩ => ⟨S1x40, .f32⟩
  | .hbm, ⟨92, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S2x64x16, .f32⟩
  | .local _ .vmem, ⟨5, _⟩ => ⟨S1x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S2x16x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S16_S1x16 : S16.ShapeCasts S1x16
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S2x64x16_S1x64x16_0_0_0 : ∀ a, (![0, 0, 0] : Fin 3 → Nat) a + S1x64x16.size a ≤ S2x64x16.size a
  h_S1x64x16 : 0 < S1x64x16.numel
  shapeCasts_S1x64x16_S64x16 : S1x64x16.ShapeCasts S64x16
  inb_S2x64x16_S1x64x16_1_0_0 : ∀ a, (![1, 0, 0] : Fin 3 → Nat) a + S1x64x16.size a ≤ S2x64x16.size a
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S40_S1x40 : S40.ShapeCasts S1x40
  shapeCasts_S5000x16_S5000x16 : S5000x16.ShapeCasts S5000x16
  inb_S2x16x40_S1x16x40_0_0_0 : ∀ a, (![0, 0, 0] : Fin 3 → Nat) a + S1x16x40.size a ≤ S2x16x40.size a
  h_S1x16x40 : 0 < S1x16x40.numel
  shapeCasts_S1x16x40_S16x40 : S1x16x40.ShapeCasts S16x40
  inb_S2x16x40_S1x16x40_1_0_0 : ∀ a, (![1, 0, 0] : Fin 3 → Nat) a + S1x16x40.size a ≤ S2x16x40.size a
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x16_S5000x16_1_0_0_1_n_n_wf : DotDims.WF S5000x64 S64x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x40_S5000x40_1_0_0_1_n_n_wf : DotDims.WF S5000x16 S16x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64x16.size a ≤ S2x64x16.size a
  hwx0_2 : ∀ i : grid0.Coords, EltTy.bits .f32 = 32 ∨ (Rect.block (s := S2x64x16) S2x64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S100000x16.size a
  hwx0_4 : ∀ i : grid0.Coords, EltTy.bits .f32 = 32 ∨ (Rect.block (s := S100000x16) S5000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x16x40.size a ≤ S2x16x40.size a
  hwx1_2 : ∀ i : grid1.Coords, EltTy.bits .f32 = 32 ∨ (Rect.block (s := S2x16x40) S2x16x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S100000x40.size a
  hwx1_4 : ∀ i : grid1.Coords, EltTy.bits .f32 = 32 ∨ (Rect.block (s := S100000x40) S5000x40.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S5000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v48) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2x16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S2x64x16 : Shape := ⟨3, ![2, 64, 16]⟩
abbrev S16 : Shape := ⟨1, ![16]⟩
abbrev S2x16x40 : Shape := ⟨3, ![2, 16, 40]⟩
abbrev S40 : Shape := ⟨1, ![40]⟩
abbrev S2x1600000 : Shape := ⟨2, ![2, 1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x16 : Shape := ⟨3, ![1, 64, 16]⟩
abbrev S64x16 : Shape := ⟨2, ![64, 16]⟩
abbrev S100000x16 : Shape := ⟨2, ![100000, 16]⟩
abbrev S1x16 : Shape := ⟨2, ![1, 16]⟩
abbrev S1600000x16 : Shape := ⟨2, ![1600000, 16]⟩
abbrev S1x16x40 : Shape := ⟨3, ![1, 16, 40]⟩
abbrev S16x40 : Shape := ⟨2, ![16, 40]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S2x64x16, .f32⟩
  | .hbm, ⟨3, _⟩ => ⟨S16, .f32⟩
  | .hbm, ⟨4, _⟩ => ⟨S2x16x40, .f32⟩
  | .hbm, ⟨5, _⟩ => ⟨S40, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .f32⟩
  | .hbm, ⟨36, _⟩ => ⟨S1600000, .f32⟩
  | .hbm, ⟨37, _⟩ => ⟨S1600000, .f32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000, .f32⟩
  | .hbm, ⟨49, _⟩ => ⟨S1600000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64x16, .f32⟩
  | .hbm, ⟨70, _⟩ => ⟨S64x16, .f32⟩
  | .hbm, ⟨71, _⟩ => ⟨S100000x16, .f32⟩
  | .hbm, ⟨72, _⟩ => ⟨S1x64x16, .f32⟩
  | .hbm, ⟨73, _⟩ => ⟨S64x16, .f32⟩
  | .hbm, ⟨74, _⟩ => ⟨S100000x16, .f32⟩
  | .hbm, ⟨75, _⟩ => ⟨S100000x16, .f32⟩
  | .hbm, ⟨76, _⟩ => ⟨S1x16, .f32⟩
  | .hbm, ⟨77, _⟩ => ⟨S100000x16, .f32⟩
  | .hbm, ⟨78, _⟩ => ⟨S100000x16, .f32⟩
  | .hbm, ⟨79, _⟩ => ⟨S_, .f32⟩
  | .hbm, ⟨80, _⟩ => ⟨S100000x16, .f32⟩
  | .hbm, ⟨81, _⟩ => ⟨S100000x16, .f32⟩
  | .hbm, ⟨82, _⟩ => ⟨S1600000x1, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x16, .f32⟩
  | .hbm, ⟨92, _⟩ => ⟨S1600000x16, .f32⟩
  | .hbm, ⟨93, _⟩ => ⟨S1600000x16, .f32⟩
  | .hbm, ⟨94, _⟩ => ⟨S_, .f32⟩
  | .hbm, ⟨95, _⟩ => ⟨S100000x16, .f32⟩
  | .hbm, ⟨96, _⟩ => ⟨S1600000x1, .i32⟩
  | .hbm, ⟨97, _⟩ => ⟨S100000x16, .f32⟩
  | .hbm, ⟨98, _⟩ => ⟨S_, .f32⟩
  | .hbm, ⟨99, _⟩ => ⟨S100000x16, .f32⟩
  | .hbm, ⟨100, _⟩ => ⟨S100000x16, .f32⟩
  | .hbm, ⟨101, _⟩ => ⟨S100000x16, .f32⟩
  | .hbm, ⟨102, _⟩ => ⟨S1x16x40, .f32⟩
  | .hbm, ⟨103, _⟩ => ⟨S16x40, .f32⟩
  | .hbm, ⟨104, _⟩ => ⟨S100000x40, .f32⟩
  | .hbm, ⟨105, _⟩ => ⟨S1x16x40, .f32⟩
  | .hbm, ⟨106, _⟩ => ⟨S16x40, .f32⟩
  | .hbm, ⟨107, _⟩ => ⟨S100000x40, .f32⟩
  | .hbm, ⟨108, _⟩ => ⟨S100000x40, .f32⟩
  | .hbm, ⟨109, _⟩ => ⟨S1x40, .f32⟩
  | .hbm, ⟨110, _⟩ => ⟨S100000x40, .f32⟩
  | .hbm, ⟨111, _⟩ => ⟨S100000x40, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S100000, .f32⟩
  | .hbm, ⟨116, _⟩ => ⟨S100000, .f32⟩
  | .hbm, ⟨117, _⟩ => ⟨S100000x1, .f32⟩
  | .hbm, ⟨118, _⟩ => ⟨S100000x40, .f32⟩
  | .hbm, ⟨119, _⟩ => ⟨S100000x40, .f32⟩
  | .hbm, ⟨120, _⟩ => ⟨S100000x40, .f32⟩
  | .hbm, ⟨121, _⟩ => ⟨S_, .f32⟩
  | .hbm, ⟨122, _⟩ => ⟨S100000, .f32⟩
  | .hbm, ⟨123, _⟩ => ⟨S100000x1, .f32⟩
  | .hbm, ⟨124, _⟩ => ⟨S100000x1, .f32⟩
  | .hbm, ⟨125, _⟩ => ⟨S100000x40, .f32⟩
  | .hbm, ⟨126, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call1_cst : Ref sig .tc := ⟨.hbm, 79, rfl⟩
abbrev main_call1_v0 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call2_cst : Ref sig .tc := ⟨.hbm, 112, rfl⟩
abbrev main_call2_v0 : Ref sig .tc := ⟨.hbm, 113, rfl⟩
abbrev main_call2_cst_0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_cst_1 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_v84 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S2x64x16_S1x64x16_0_0_0 : S2x64x16.Slices ![0, 0, 0] S1x64x16
  shapeCasts_S1x64x16_S64x16 : S1x64x16.ShapeCasts S64x16
  slices_S2x64x16_S1x64x16_1_0_0 : S2x64x16.Slices ![1, 0, 0] S1x64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1600000x1_S1600000x16_0_1 : S1600000x1.BroadcastsInDim S1600000x16 (![0, 1] : Fin 2 → Fin S1600000x16.rank)
  slices_S2x16x40_S1x16x40_0_0_0 : S2x16x40.Slices ![0, 0, 0] S1x16x40
  shapeCasts_S1x16x40_S16x40 : S1x16x40.ShapeCasts S16x40
  slices_S2x16x40_S1x16x40_1_0_0 : S2x16x40.Slices ![1, 0, 0] S1x16x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x40_S100000x40_1_0_0_1_n_n_wf : DotDims.WF S100000x16 S16x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf

class Facts : Prop extends Facts₀ where

variable [Facts]
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.RunValue.lean ====
/-
  The idealized kernel's run, with its result named.

  The program is two row-blocked layers among stretches of host operations. Every weakly fair execution ends, without
  a fault, with every buffer no region scopes at the contents the last boundary names: the arguments as launched, and
  the result array at what the second layer's write-backs leave in it. This is the run the frame certificate makes,
  read once more at the result's buffer.
-/
import proofs.«105451_j7876970020888_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: the result's buffer ends at the last boundary's contents, the arguments as launched. -/
theorem run_main : θ_run defs (onTc (τ := τ) (main (F := F))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.RunValue

end
-- ==== Proof.Layers.lean ====
/-
  The two layers of a Chebyshev graph convolution of order two over the extended reals, entry by entry.

  A layer takes the node features `X` and their graph-propagated copy `TX` (rows `r`, features `k`), two weight
  matrices `W0`, `W1` and a bias `β`, and forms `X · W0 + TX · W1 + β`: entry `(r, c)` is the sum over `k` of
  `X r k * W0 k c`, plus the sum over `k` of `TX r k * W1 k c`, plus `β c` (`lin`).
  The first layer clamps that below at zero; the second takes the logarithm of the softmax along each row: with `m`
  the row's maximum (a fold of `max` from minus infinity, once more joined with minus infinity), entry `(r, c)` is
  `(A r c - m) - log (∑ k, exp (A r k - m))` (`logSoftmax`).
  Every entry of either depends on ONE row of `X`, `TX` (of `A`) only (`lin_row`, `logSoftmax_row`): a program that
  works through the rows block by block computes the same array as one that takes all rows at once.
-/
import Idealize.ShloMosaic.PureOps.Ideal
import Idealize.ShloMosaic.PureOps.Ideal.Laws
import Idealize.ShloMosaic.Lib.ValueIdx

noncomputable section

open scoped BigOperators

namespace Cert.Cheb

open Idealize.ShloMosaic Idealize.ShloMosaic.ValueIdx

variable {M M' K N : Nat}

/-- The zero word and the minus-infinity word read as extended reals (never evaluated: the same words stand on
    both sides of every equation here). -/
abbrev zeroWord : EReal := Ideal.ofBits .f32 0x00000000#32
abbrev negInfWord : EReal := Ideal.ofBits .f32 0xFF800000#32

/-- `X · W0 + TX · W1 + β` at `(r, c)`. -/
def lin (X TX : Fin M → Fin K → EReal) (W0 W1 : Fin K → Fin N → EReal) (β : Fin N → EReal) (r : Fin M) (c : Fin N) : EReal :=
  (∑ k : Fin K, X r k * W0 k c) + (∑ k : Fin K, TX r k * W1 k c) + β c

/-- An entry of `lin` reads row `r` of `X` and `TX` only. -/
theorem lin_row (X TX : Fin M → Fin K → EReal) (X' TX' : Fin M' → Fin K → EReal) (W0 W1 : Fin K → Fin N → EReal)
    (β : Fin N → EReal) (p : Fin M') (r : Fin M) (hX : ∀ k, X' p k = X r k) (hTX : ∀ k, TX' p k = TX r k) (c : Fin N) :
    lin X' TX' W0 W1 β p c = lin X TX W0 W1 β r c := by
  unfold lin
  simp only [hX, hTX]

/-- The maximum of row `r`. -/
def rowMax (A : Fin M → Fin N → EReal) (r : Fin M) : EReal :=
  max negInfWord ((Finset.univ : Finset (Fin N)).fold max negInfWord (fun k => A r k))

/-- The logarithm of the softmax along row `r`, at column `c`. -/
def logSoftmax (A : Fin M → Fin N → EReal) (r : Fin M) (c : Fin N) : EReal :=
  (A r c - rowMax A r) - Ideal.log (∑ k : Fin N, Ideal.exp (A r k - rowMax A r))

/-- An entry of `logSoftmax` reads row `r` of `A` only. -/
theorem logSoftmax_row (A : Fin M → Fin N → EReal) (A' : Fin M' → Fin N → EReal) (p : Fin M') (r : Fin M)
    (h : ∀ k, A' p k = A r k) (c : Fin N) : logSoftmax A' p c = logSoftmax A r c := by
  unfold logSoftmax rowMax
  simp only [h]

/-! ## The layers over whole arrays -/

/-- An array `[M, K]` by rows. -/
abbrev rows (x : (⟨2, ![M, K]⟩ : Shape).Idx → EReal) : Fin M → Fin K → EReal := fun r k => x (ix2 r k)
/-- Slice `j` of a weight stack `[2, K, N]`. -/
abbrev slice (w : (⟨3, ![2, K, N]⟩ : Shape).Idx → EReal) (j : Fin 2) : Fin K → Fin N → EReal := fun k c => w (ix3 j k c)
/-- A bias vector `[N]` by coordinate. -/
abbrev coords (b : (⟨1, ![N]⟩ : Shape).Idx → EReal) : Fin N → EReal := fun c => b (ix1 c)

/-- The first layer: `x · w[0] + tx · w[1] + b` clamped below at zero. -/
def layer1 (x tx : (⟨2, ![M, K]⟩ : Shape).Idx → EReal) (w : (⟨3, ![2, K, N]⟩ : Shape).Idx → EReal)
    (b : (⟨1, ![N]⟩ : Shape).Idx → EReal) : (⟨2, ![M, N]⟩ : Shape).Idx → EReal :=
  fun i => max (lin (rows x) (rows tx) (slice w 0) (slice w 1) (coords b) (i 0) (i 1)) zeroWord

/-- The second layer: the log-softmax along the rows of `x · w[0] + tx · w[1] + b`. -/
def layer2 (x tx : (⟨2, ![M, K]⟩ : Shape).Idx → EReal) (w : (⟨3, ![2, K, N]⟩ : Shape).Idx → EReal)
    (b : (⟨1, ![N]⟩ : Shape).Idx → EReal) : (⟨2, ![M, N]⟩ : Shape).Idx → EReal :=
  fun i => logSoftmax (lin (rows x) (rows tx) (slice w 0) (slice w 1) (coords b)) (i 0) (i 1)

end Cert.Cheb

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Entry1.lean ====
/-
  What the first layer's body computes, read at an entry.

  From a block of 5000 rows of `x` and of `tx`, the two slices `w[0]`, `w[1]` of the weight stack (each `[1, 64, 16]`)
  and the bias row `[1, 16]`, the body forms two matrix products into zero accumulators (a change of float format is
  the identity over the extended reals), adds them, adds the bias row repeated down the rows, and clamps below at the
  zero word: entry `(p, q)` is `max (lin … p q) 0` of the block's rows.
-/
import proofs.«105451_j7876970020888_1_alg».proof.Proof.Gen.KernelIdeal.Skeleton
import proofs.«105451_j7876970020888_1_alg».proof.Proof.Layers
import proofs.«105451_j7876970020888_1_alg».proof.Proof.LibMatProd
import Idealize.ShloMosaic.Lib.ValueLayout
import Idealize.ShloMosaic.Lib.Pipeline.Value

noncomputable section

open scoped BigOperators

namespace Cert.KernelIdeal.Entries

open Cert.KernelIdeal Cert.KernelIdeal.Gen Idealize.ShloMosaic Idealize.ShloMosaic.ValueIdx

/-- A product of a `[5000, 64]` block with a weight slice `[1, 64, 16]` seen as `[64, 16]`, into the zero
    accumulator, at `(p, q)`: the sum over `k` of the block's `(p, k)` times the slice's `(0, k, q)`. -/
theorem prod64 (x : FVec Ideal S5000x64 .f32) (w : FVec Ideal S1x64x16 .f32) (hb : FTy.bits .bf16 < FTy.bits .f32)
    (hc : S1x64x16.ShapeCasts S64x16) (p : Fin 5000) (q : Fin 16) :
    matmul dot_S5000x64_S64x16_S5000x16_1_0_0_1_n_n none (truncf .bf16 x hb) (truncf .bf16 (shapeCast S64x16 w hc) hb)
        (constant S5000x16 .f32 0x00000000#32) (ix2 p q)
      = ∑ k : Fin 64, x (ix2 p k) * w (ix3 (0 : Fin 1) k q) := by
  refine (Cert.MatProd.matmul_plain_zero_apply (M := 5000) (K := 64) (N := 16) none
    (truncf .bf16 x hb) (truncf .bf16 (shapeCast S64x16 w hc) hb) p q).trans ?_
  refine Finset.sum_congr rfl fun k _ => ?_
  show x (ix2 p k) * shapeCast S64x16 w hc (ix2 k q) = _
  rw [shapeCast_1ab_ab_apply]

/-- THE BODY'S RESULT AT `(p, q)`. -/
theorem pay1_apply (x tx : Vec Ideal S5000x64 .f32) (w0 w1 : Vec Ideal S1x64x16 .f32) (b : Vec Ideal S1x16 .f32)
    (p : Fin 5000) (q : Fin 16) :
    k0_pay1 (F := Ideal) x tx w0 w1 b (ix2 p q)
      = max (Cert.Cheb.lin (fun r k => x (ix2 r k)) (fun r k => tx (ix2 r k)) (fun k c => w0 (ix3 (0 : Fin 1) k c))
          (fun k c => w1 (ix3 (0 : Fin 1) k c)) (fun c => b (ix2 (0 : Fin 1) c)) p q) Cert.Cheb.zeroWord := by
  unfold k0_pay1 Cert.Cheb.lin
  refine congrArg₂ max (congrArg₂ (· + ·) (congrArg₂ (· + ·) (prod64 x w0 _ _ p q) ?_) ?_) rfl
  · refine (prod64 (shapeCast S5000x64 tx shapeCasts_S5000x64_S5000x64) w1 _ _ p q).trans ?_
    rw [shapeCast_self]
  · show broadcastTo S5000x16 (shapeCast S1x16 b shapeCasts_S1x16_S1x16) broadcasts_S1x16_S5000x16 (ix2 p q) = _
    rw [broadcastTo_1b_ab_apply, shapeCast_self]

end Cert.KernelIdeal.Entries

end
-- ==== Proof.Blocks.lean ====
/-
  A layer's sum over a block of rows against the same sum over the whole arrays.

  Entry `(p, c)` of `X' · W0' + TX' · W1' + β'` is entry `(r, c)` of `X · W0 + TX · W1 + β` as soon as row `p` of the
  blocks `X'`, `TX'` is row `r` of `X`, `TX` and the weights and the bias agree entry by entry — which is what a grid
  point that holds block `t` of the rows, the whole weight stack and the whole bias sees.
-/
import proofs.«105451_j7876970020888_1_alg».proof.Proof.Layers

noncomputable section

namespace Cert.Cheb

variable {M M' K N : Nat}

theorem lin_congr (X TX : Fin M → Fin K → EReal) (X' TX' : Fin M' → Fin K → EReal) (W0 W1 W0' W1' : Fin K → Fin N → EReal)
    (β β' : Fin N → EReal) (p : Fin M') (r : Fin M) (hX : ∀ k, X' p k = X r k) (hTX : ∀ k, TX' p k = TX r k)
    (hW0 : ∀ k c, W0' k c = W0 k c) (hW1 : ∀ k c, W1' k c = W1 k c) (hβ : ∀ c, β' c = β c) (c : Fin N) :
    lin X' TX' W0' W1' β' p c = lin X TX W0 W1 β r c := by
  unfold lin
  simp only [hX, hTX, hW0, hW1, hβ]

end Cert.Cheb

end
-- ==== Proof.Array1.lean ====
/-
  From blocks to the array: the first layer.

  Grid point `t` of the first region holds rows `5000 t … 5000 t + 4999` of `x` and of `tx`, the whole weight stack and
  the whole bias row, and writes back rows `5000 t … 5000 t + 4999` of the result. What it writes is the first layer of
  its blocks; an entry of the first layer reads one row of `x` and `tx` only, so the block written back is block `t` of
  the first layer of the whole arrays. The twenty blocks tile the `100000` rows, so after the region the result array IS
  the first layer of the arrays the region found (`final1`).
-/
import proofs.«105451_j7876970020888_1_alg».proof.Proof.Gen.KernelIdeal.Frame
import proofs.«105451_j7876970020888_1_alg».proof.Proof.Entry1
import proofs.«105451_j7876970020888_1_alg».proof.Proof.Blocks
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The first layer of the arrays the region finds: `x`, the propagated `tx`, the weight stack, and the bias read off
    its `[1, 16]` row. -/
def G1 (c : Dev nD) : S100000x16.Idx → EReal :=
  Cert.Cheb.layer1 (M := 100000) (K := 64) (N := 16) (V c main_arg0) (V c main_v46) (V c main_arg2)
    (fun i => V c main_v47 (ix2 (0 : Fin 1) (i 0)))

/-- The index maps over the grid: `x`, `tx` and the result move together down the rows, block `t` at point `t`;
    the weights and the bias stay. -/
theorem idx_facts0 : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

/-- Slice `j` of the weight stack as the body loads it off the staged stack. -/
theorem w_slice0 (c : Dev nD) (t : Fin cfg0.N) (k : Fin 64) (q : Fin 16) :
    View.ld (iblk0 V c 2 t) r0_1 (ix3 (0 : Fin 1) k q) = V c main_arg2 (ix3 (0 : Fin 2) k q) := by
  show V c main_arg2 (((cfg0.win 2).blk t).view.emb (r0_1.emb (ix3 (0 : Fin 1) k q))) = _
  obtain ⟨-, -, -, -, e20, e21, e22, -⟩ := idx_facts0 t
  have h : ((cfg0.win 2).blk t).view.emb (r0_1.emb (ix3 (0 : Fin 1) k q)) = ix3 (0 : Fin 2) k q := by
    funext a; apply Fin.ext
    match a with
    | ⟨0, _⟩ => show win0_2.index t (0 : Fin 3) * 2 + 1 * (0 + 1 * 0) = 0; omega
    | ⟨1, _⟩ => show win0_2.index t (1 : Fin 3) * 64 + 1 * (0 + 1 * k.val) = k.val; omega
    | ⟨2, _⟩ => show win0_2.index t (2 : Fin 3) * 16 + 1 * (0 + 1 * q.val) = q.val; omega
  rw [h]

theorem w_slice1 (c : Dev nD) (t : Fin cfg0.N) (k : Fin 64) (q : Fin 16) :
    View.ld (iblk0 V c 2 t) r0_2 (ix3 (0 : Fin 1) k q) = V c main_arg2 (ix3 (1 : Fin 2) k q) := by
  show V c main_arg2 (((cfg0.win 2).blk t).view.emb (r0_2.emb (ix3 (0 : Fin 1) k q))) = _
  obtain ⟨-, -, -, -, e20, e21, e22, -⟩ := idx_facts0 t
  have h : ((cfg0.win 2).blk t).view.emb (r0_2.emb (ix3 (0 : Fin 1) k q)) = ix3 (1 : Fin 2) k q := by
    funext a; apply Fin.ext
    match a with
    | ⟨0, _⟩ => show win0_2.index t (0 : Fin 3) * 2 + 1 * (1 + 1 * 0) = 1; omega
    | ⟨1, _⟩ => show win0_2.index t (1 : Fin 3) * 64 + 1 * (0 + 1 * k.val) = k.val; omega
    | ⟨2, _⟩ => show win0_2.index t (2 : Fin 3) * 16 + 1 * (0 + 1 * q.val) = q.val; omega
  rw [h]

/-- WHAT POINT `t` WRITES BACK is block `t` of the first layer of the arrays. -/
theorem flushed1_eq (c : Dev nD) (t : Fin cfg0.N) :
    (dat0 V c).flushed 4 t = ((cfg0.win 4).blk t).view.read (Elt Ideal) (G1 V c) := by
  show (cfg0.win 4).cut (grid0.coords t) ((dat0 V c).after 4 t) = _
  rw [after0_4]
  unfold out0_4
  rw [View.canon_unit_zero zeros2]
  simp only [View.ld_unit_zero (S := S5000x64) zeros2, View.ld_unit_zero (S := S1x16) zeros2]
  obtain ⟨e00, e01, e10, e11, -, -, -, e30, e31, e41, -⟩ := idx_facts0 t
  funext j
  obtain ⟨p, q, rfl⟩ : ∃ (p : Fin 5000) (q : Fin 16), j = ix2 p q := ⟨j 0, j 1, eq_ix2 j⟩
  show k0_pay1 (iblk0 V c 0 t) (iblk0 V c 1 t) (View.ld (iblk0 V c 2 t) r0_1) (View.ld (iblk0 V c 2 t) r0_2) (iblk0 V c 3 t) (ix2 p q)
    = G1 V c (((cfg0.win 4).blk t).view.emb (ix2 p q))
  refine (Entries.pay1_apply _ _ _ _ _ p q).trans ?_
  unfold G1 Cert.Cheb.layer1
  have hq : (((cfg0.win 4).blk t).view.emb (ix2 p q)) 1 = q :=
    Fin.ext (by show win0_4.index t (1 : Fin 2) * 16 + 1 * q.val = q.val; omega)
  rw [hq]
  refine congrArg (max · Cert.Cheb.zeroWord) ?_
  refine Cert.Cheb.lin_congr _ _ _ _ _ _ _ _ _ _ p _ (fun k => ?_) (fun k => ?_) (fun k c' => w_slice0 V c t k c')
    (fun k c' => w_slice1 V c t k c') (fun c' => ?_) q
  · show V c main_arg0 (((cfg0.win 0).blk t).view.emb (ix2 p k)) = V c main_arg0 (ix2 ((((cfg0.win 4).blk t).view.emb (ix2 p q)) 0) k)
    have h : ((cfg0.win 0).blk t).view.emb (ix2 p k) = ix2 ((((cfg0.win 4).blk t).view.emb (ix2 p q)) 0) k := by
      funext a; apply Fin.ext
      match a with
      | ⟨0, _⟩ => show win0_0.index t (0 : Fin 2) * 5000 + 1 * p.val = win0_4.index t (0 : Fin 2) * 5000 + 1 * p.val; omega
      | ⟨1, _⟩ => show win0_0.index t (1 : Fin 2) * 64 + 1 * k.val = k.val; omega
    exact congrArg (V c main_arg0) h
  · show V c main_v46 (((cfg0.win 1).blk t).view.emb (ix2 p k)) = V c main_v46 (ix2 ((((cfg0.win 4).blk t).view.emb (ix2 p q)) 0) k)
    have h : ((cfg0.win 1).blk t).view.emb (ix2 p k) = ix2 ((((cfg0.win 4).blk t).view.emb (ix2 p q)) 0) k := by
      funext a; apply Fin.ext
      match a with
      | ⟨0, _⟩ => show win0_1.index t (0 : Fin 2) * 5000 + 1 * p.val = win0_4.index t (0 : Fin 2) * 5000 + 1 * p.val; omega
      | ⟨1, _⟩ => show win0_1.index t (1 : Fin 2) * 64 + 1 * k.val = k.val; omega
    exact congrArg (V c main_v46) h
  · show V c main_v47 (((cfg0.win 3).blk t).view.emb (ix2 (0 : Fin 1) c')) = V c main_v47 (ix2 (0 : Fin 1) c')
    have h : ((cfg0.win 3).blk t).view.emb (ix2 (0 : Fin 1) c') = ix2 (0 : Fin 1) c' := by
      funext a; apply Fin.ext
      match a with
      | ⟨0, _⟩ => show win0_3.index t (0 : Fin 2) * 1 + 1 * 0 = 0; omega
      | ⟨1, _⟩ => show win0_3.index t (1 : Fin 2) * 16 + 1 * c'.val = c'.val; omega
    rw [h]

/-- An index of the result array is in point `t`'s block iff its row is among that block's rows. -/
theorem mem_blk1 (t : Fin cfg0.N) (i : S100000x16.Idx) :
    i ∈ ((cfg0.win 4).blk t).view.set ↔ ∀ a : Fin 2, win0_4.index t a * S5000x16.size a ≤ (i a).val
      ∧ (i a).val < win0_4.index t a * S5000x16.size a + S5000x16.size a := by
  show i ∈ ((View.whole main_v48).slice (win0_4.rect t)).set ↔ _
  rw [View.set_slice_whole, Rect.mem_set_unit]
  exact Iff.rfl

/-- Every index of the result array is in the block of the point its row falls to. -/
theorem cover1 (i : S100000x16.Idx) : ∃ t : Fin cfg0.N, (cfg0.win 4).flush t = true ∧ i ∈ ((cfg0.win 4).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨-, -, -, -, -, -, -, -, -, e41, e40⟩ := idx_facts0 t
  have e40' : win0_4.index t (0 : Fin 2) = (i 0).val / 5000 := e40
  refine ⟨t, flush0_4 t, ?_⟩
  rw [mem_blk1]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 16 ≤ (i 1).val ∧ (i 1).val < win0_4.index t (1 : Fin 2) * 16 + 16; omega

/-- THE RESULT ARRAY after the region: the first layer of the arrays the region found. -/
theorem final1 (c : Dev nD) : (dat0 V c).arrAt 4 cfg0.N = G1 V c :=
  (dat0 V c).arrAt_eq_of_cover 4 (G1 V c) (fun t _ => flushed1_eq V c t) cover1

end Cert.KernelIdeal.Arrays

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.Entry2.lean ====
/-
  What the second layer's body computes, read at an entry.

  From a block of 5000 rows of `h` and of `th`, the two slices of the weight stack (each `[1, 16, 40]`) and the bias
  row `[1, 40]`, the body forms `A = h · w0 + th · w1 + b` as the first layer does (`acc2`), then along each row:
  the maximum (a lane reduction from minus infinity, joined once more with minus infinity), the shifted row, its
  exponentials, their sum, its logarithm, and the shifted row minus that logarithm (`lsmOps`). The row statistics travel
  as a vector `[5000]`, viewed as a column `[5000, 1]` and repeated across the 40 columns. Entry `(p, q)` is the
  log-softmax of row `p` of `A` at column `q`.
-/
import proofs.«105451_j7876970020888_1_alg».proof.Proof.Gen.KernelIdeal.Skeleton
import proofs.«105451_j7876970020888_1_alg».proof.Proof.Layers
import proofs.«105451_j7876970020888_1_alg».proof.Proof.LibMatProd
import proofs.«105451_j7876970020888_1_alg».proof.Proof.LibKeepdims
import Idealize.ShloMosaic.Lib.ValueLayout
import Idealize.ShloMosaic.Lib.Pipeline.Value

noncomputable section

open scoped BigOperators

namespace Cert.KernelIdeal.Entries

open Cert.KernelIdeal Cert.KernelIdeal.Gen Idealize.ShloMosaic Idealize.ShloMosaic.ValueIdx

/-- A product of a `[5000, 16]` block with a weight slice `[1, 16, 40]` seen as `[16, 40]`, into the zero
    accumulator, at `(p, q)`. -/
theorem prod16 (x : FVec Ideal S5000x16 .f32) (w : FVec Ideal S1x16x40 .f32) (hb : FTy.bits .bf16 < FTy.bits .f32)
    (hc : S1x16x40.ShapeCasts S16x40) (p : Fin 5000) (q : Fin 40) :
    matmul dot_S5000x16_S16x40_S5000x40_1_0_0_1_n_n none (truncf .bf16 x hb) (truncf .bf16 (shapeCast S16x40 w hc) hb)
        (constant S5000x40 .f32 0x00000000#32) (ix2 p q)
      = ∑ k : Fin 16, x (ix2 p k) * w (ix3 (0 : Fin 1) k q) := by
  refine (Cert.MatProd.matmul_plain_zero_apply (M := 5000) (K := 16) (N := 40) none
    (truncf .bf16 x hb) (truncf .bf16 (shapeCast S16x40 w hc) hb) p q).trans ?_
  refine Finset.sum_congr rfl fun k _ => ?_
  show x (ix2 p k) * shapeCast S16x40 w hc (ix2 k q) = _
  rw [shapeCast_1ab_ab_apply]

/-- `h · w0 + th · w1 + b` over a block, as the body spells it. -/
def acc2 (x tx : Vec Ideal S5000x16 .f32) (w0 w1 : Vec Ideal S1x16x40 .f32) (b : Vec Ideal S1x40 .f32) : FVec Ideal S5000x40 .f32 :=
  addf (addf
    (matmul dot_S5000x16_S16x40_S5000x40_1_0_0_1_n_n none (truncf .bf16 (shapeCast S5000x16 x shapeCasts_S5000x16_S5000x16) bitsLt_bf16_f32)
      (truncf .bf16 (shapeCast S16x40 w0 shapeCasts_S1x16x40_S16x40) bitsLt_bf16_f32) (constant S5000x40 .f32 0x00000000#32))
    (matmul dot_S5000x16_S16x40_S5000x40_1_0_0_1_n_n none (truncf .bf16 (shapeCast S5000x16 tx shapeCasts_S5000x16_S5000x16) bitsLt_bf16_f32)
      (truncf .bf16 (shapeCast S16x40 w1 shapeCasts_S1x16x40_S16x40) bitsLt_bf16_f32) (constant S5000x40 .f32 0x00000000#32)))
    (broadcastTo S5000x40 (shapeCast S1x40 b shapeCasts_S1x40_S1x40) broadcasts_S1x40_S5000x40)

/-- Its entry `(p, q)`. -/
theorem acc2_apply (x tx : Vec Ideal S5000x16 .f32) (w0 w1 : Vec Ideal S1x16x40 .f32) (b : Vec Ideal S1x40 .f32)
    (p : Fin 5000) (q : Fin 40) :
    acc2 x tx w0 w1 b (ix2 p q)
      = Cert.Cheb.lin (fun r k => x (ix2 r k)) (fun r k => tx (ix2 r k)) (fun k c => w0 (ix3 (0 : Fin 1) k c))
          (fun k c => w1 (ix3 (0 : Fin 1) k c)) (fun c => b (ix2 (0 : Fin 1) c)) p q := by
  unfold acc2 Cert.Cheb.lin
  refine congrArg₂ (· + ·) (congrArg₂ (· + ·) ?_ ?_) ?_
  · refine (prod16 (shapeCast S5000x16 x shapeCasts_S5000x16_S5000x16) w0 _ _ p q).trans ?_
    rw [shapeCast_self]
  · refine (prod16 (shapeCast S5000x16 tx shapeCasts_S5000x16_S5000x16) w1 _ _ p q).trans ?_
    rw [shapeCast_self]
  · show broadcastTo S5000x40 (shapeCast S1x40 b shapeCasts_S1x40_S1x40) broadcasts_S1x40_S5000x40 (ix2 p q) = _
    rw [broadcastTo_1b_ab_apply, shapeCast_self]

/-- The place of row `p`, column `k` along the reduced axis. -/
theorem lift_row (h : S5000x40.Reduces [1] S5000) (p : Fin 5000) (k : Fin 40) :
    h.lift (ix1 p) k = ix2 p k :=
  funext fun a => Fin.ext (by match a with | ⟨0, _⟩ => rfl | ⟨1, _⟩ => rfl)

/-- A row statistic `[5000]` viewed as a column and repeated across the columns reads, at `(p, q)`, the statistic of row `p`. -/
theorem keep_apply (v : FVec Ideal S5000 .f32) (hc : S5000.ShapeCasts S5000x1) (hb : S5000x1.Broadcasts S5000x40)
    (p : Fin 5000) (q : Fin 40) : broadcastTo S5000x40 (shapeCast S5000x1 v hc) hb (ix2 p q) = v (ix1 p) :=
  (Cert.Keepdims.broadcastTo_a1_ab_apply _ hb p q).trans (Cert.Keepdims.shapeCast_a_a1_apply v hc p 0)

/-- The row maxima of a `[5000, 40]` block, as the body takes them: a lane reduction from minus infinity, joined once
    more with minus infinity. -/
def rowMaxOps (A : FVec Ideal S5000x40 .f32) : FVec Ideal S5000 .f32 :=
  maximumf (broadcast S5000 (Scalar.ofBits .f32 0xFF800000#32))
    (multiReduction .maximumf [1] S5000 A 0xFF800000#32 reduces_S5000x40_S5000 (.inl rfl) rfl)

theorem rowMaxOps_apply (A : FVec Ideal S5000x40 .f32) (p : Fin 5000) :
    rowMaxOps A (ix1 p) = Cert.Cheb.rowMax (fun r k => A (ix2 r k)) p := by
  unfold rowMaxOps Cert.Cheb.rowMax
  show max (Ideal.ofBits .f32 0xFF800000#32)
    (multiReduction .maximumf [1] S5000 A 0xFF800000#32 reduces_S5000x40_S5000 (.inl rfl) rfl (ix1 p)) = _
  refine congrArg (max _) ?_
  refine (Ideal.multiReduction_maximumf_single A _ reduces_S5000x40_S5000 _ _ (ix1 p)).trans ?_
  refine congrArg (fun f => Finset.fold max _ f Finset.univ) (funext fun k => ?_)
  exact congrArg A (lift_row reduces_S5000x40_S5000 p k)

/-- Each row shifted by its maximum. -/
def shifted (A : FVec Ideal S5000x40 .f32) : FVec Ideal S5000x40 .f32 :=
  subf A (broadcastTo S5000x40 (shapeCast S5000x1 (rowMaxOps A) shapeCasts_S5000_S5000x1) broadcasts_S5000x1_S5000x40)

theorem shifted_apply (A : FVec Ideal S5000x40 .f32) (p : Fin 5000) (k : Fin 40) :
    shifted A (ix2 p k) = A (ix2 p k) - Cert.Cheb.rowMax (fun r k => A (ix2 r k)) p := by
  unfold shifted
  exact congrArg (A (ix2 p k) - ·) ((keep_apply _ _ _ p k).trans (rowMaxOps_apply A p))

/-- The row sums of a `[5000, 40]` block, as the body takes them: a lane reduction from zero. -/
def rowSumOps (E : FVec Ideal S5000x40 .f32) : FVec Ideal S5000 .f32 :=
  multiReduction .add [1] S5000 E 0x00000000#32 reduces_S5000x40_S5000 (.inl rfl) rfl

theorem rowSumOps_apply (E : FVec Ideal S5000x40 .f32) (p : Fin 5000) :
    rowSumOps E (ix1 p) = ∑ k : Fin 40, E (ix2 p k) := by
  unfold rowSumOps
  refine (Ideal.multiReduction_add_single E _ reduces_S5000x40_S5000 _ _ (ix1 p)).trans ?_
  exact Finset.sum_congr rfl fun k _ => congrArg E (lift_row reduces_S5000x40_S5000 p k)

/-- The row-wise log-softmax of a `[5000, 40]` block, as the body spells it. -/
def lsmOps (A : FVec Ideal S5000x40 .f32) : FVec Ideal S5000x40 .f32 :=
  subf (shifted A)
    (broadcastTo S5000x40 (log (shapeCast S5000x1 (rowSumOps (exp (shifted A))) shapeCasts_S5000_S5000x1)) broadcasts_S5000x1_S5000x40)

/-- The body is the log-softmax of that sum. -/
theorem pay2_eq (x tx : Vec Ideal S5000x16 .f32) (w0 w1 : Vec Ideal S1x16x40 .f32) (b : Vec Ideal S1x40 .f32) :
    k1_pay1 (F := Ideal) x tx w0 w1 b = lsmOps (acc2 x tx w0 w1 b) := rfl

/-- THE LOG-SOFTMAX OPERATIONS AT `(p, q)`. -/
theorem lsmOps_apply (A : FVec Ideal S5000x40 .f32) (p : Fin 5000) (q : Fin 40) :
    lsmOps A (ix2 p q) = Cert.Cheb.logSoftmax (fun r k => A (ix2 r k)) p q := by
  unfold lsmOps Cert.Cheb.logSoftmax
  refine congrArg₂ (· - ·) (shifted_apply A p q) ?_
  refine (Cert.Keepdims.broadcastTo_a1_ab_apply _ broadcasts_S5000x1_S5000x40 p q).trans ?_
  show Ideal.log (shapeCast S5000x1 (rowSumOps (exp (shifted A))) shapeCasts_S5000_S5000x1 (ix2 p (0 : Fin 1))) = _
  refine congrArg Ideal.log ?_
  refine (Cert.Keepdims.shapeCast_a_a1_apply _ shapeCasts_S5000_S5000x1 p 0).trans ?_
  refine (rowSumOps_apply _ p).trans ?_
  refine Finset.sum_congr rfl fun k _ => ?_
  show Ideal.exp (shifted A (ix2 p k)) = _
  rw [shifted_apply]

/-- THE BODY'S RESULT AT `(p, q)`. -/
theorem pay2_apply (x tx : Vec Ideal S5000x16 .f32) (w0 w1 : Vec Ideal S1x16x40 .f32) (b : Vec Ideal S1x40 .f32)
    (p : Fin 5000) (q : Fin 40) :
    k1_pay1 (F := Ideal) x tx w0 w1 b (ix2 p q)
      = Cert.Cheb.logSoftmax (Cert.Cheb.lin (fun r k => x (ix2 r k)) (fun r k => tx (ix2 r k))
          (fun k c => w0 (ix3 (0 : Fin 1) k c)) (fun k c => w1 (ix3 (0 : Fin 1) k c)) (fun c => b (ix2 (0 : Fin 1) c))) p q := by
  rw [pay2_eq, lsmOps_apply]
  exact Cert.Cheb.logSoftmax_row _ _ p p (fun k => acc2_apply x tx w0 w1 b p k) q

end Cert.KernelIdeal.Entries

end
-- ==== Proof.Array2.lean ====
/-
  From blocks to the array: the second layer.

  Grid point `t` of the second region holds rows `5000 t … 5000 t + 4999` of the hidden array `h` and of its propagated
  copy `th`, the whole second weight stack and the whole bias row, and writes back the same rows of the result. What it
  writes is the log-softmax along each row of `h · w[0] + th · w[1] + b` over its blocks; a row of that sum reads one row
  of `h` and `th` only, and an entry of the log-softmax reads one row of the sum only, so the block written back is block
  `t` of the second layer of the whole arrays. The twenty blocks tile the rows: after the region the result array IS the
  second layer of the arrays the region found (`final2`).
-/
import proofs.«105451_j7876970020888_1_alg».proof.Proof.Gen.KernelIdeal.Frame
import proofs.«105451_j7876970020888_1_alg».proof.Proof.Entry2
import proofs.«105451_j7876970020888_1_alg».proof.Proof.Blocks
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2' : (![0, 0] : Fin 2 → Nat) = fun _ => 0 := funext fun a => by fin_cases a <;> rfl

/-- The second layer of the arrays the region finds: `h`, the propagated `th`, the weight stack, and the bias read
    off its `[1, 40]` row. -/
def G2 (c : Dev nD) : S100000x40.Idx → EReal :=
  Cert.Cheb.layer2 (M := 100000) (K := 16) (N := 40) (V c main_v48) (V c main_v64) (V c main_arg4)
    (fun i => V c main_v65 (ix2 (0 : Fin 1) (i 0)))

/-- The index maps over the grid: `h`, `th` and the result move together down the rows, block `t` at point `t`;
    the weights and the bias stay. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (1 : Fin 2) = 0 ∧ win1_4.index t (0 : Fin 2) = t.val :=
  (by decide +kernel : ∀ t : Fin grid1.N, _)

/-- Slice `j` of the weight stack as the body loads it off the staged stack. -/
theorem w2_slice0 (c : Dev nD) (t : Fin cfg1.N) (k : Fin 16) (q : Fin 40) :
    View.ld (iblk1 V c 2 t) r1_1 (ix3 (0 : Fin 1) k q) = V c main_arg4 (ix3 (0 : Fin 2) k q) := by
  show V c main_arg4 (((cfg1.win 2).blk t).view.emb (r1_1.emb (ix3 (0 : Fin 1) k q))) = _
  obtain ⟨-, -, -, -, e20, e21, e22, -⟩ := idx_facts1 t
  have h : ((cfg1.win 2).blk t).view.emb (r1_1.emb (ix3 (0 : Fin 1) k q)) = ix3 (0 : Fin 2) k q := by
    funext a; apply Fin.ext
    match a with
    | ⟨0, _⟩ => show win1_2.index t (0 : Fin 3) * 2 + 1 * (0 + 1 * 0) = 0; omega
    | ⟨1, _⟩ => show win1_2.index t (1 : Fin 3) * 16 + 1 * (0 + 1 * k.val) = k.val; omega
    | ⟨2, _⟩ => show win1_2.index t (2 : Fin 3) * 40 + 1 * (0 + 1 * q.val) = q.val; omega
  rw [h]

theorem w2_slice1 (c : Dev nD) (t : Fin cfg1.N) (k : Fin 16) (q : Fin 40) :
    View.ld (iblk1 V c 2 t) r1_2 (ix3 (0 : Fin 1) k q) = V c main_arg4 (ix3 (1 : Fin 2) k q) := by
  show V c main_arg4 (((cfg1.win 2).blk t).view.emb (r1_2.emb (ix3 (0 : Fin 1) k q))) = _
  obtain ⟨-, -, -, -, e20, e21, e22, -⟩ := idx_facts1 t
  have h : ((cfg1.win 2).blk t).view.emb (r1_2.emb (ix3 (0 : Fin 1) k q)) = ix3 (1 : Fin 2) k q := by
    funext a; apply Fin.ext
    match a with
    | ⟨0, _⟩ => show win1_2.index t (0 : Fin 3) * 2 + 1 * (1 + 1 * 0) = 1; omega
    | ⟨1, _⟩ => show win1_2.index t (1 : Fin 3) * 16 + 1 * (0 + 1 * k.val) = k.val; omega
    | ⟨2, _⟩ => show win1_2.index t (2 : Fin 3) * 40 + 1 * (0 + 1 * q.val) = q.val; omega
  rw [h]

/-- WHAT POINT `t` WRITES BACK is block `t` of the second layer of the arrays. -/
theorem flushed2_eq (c : Dev nD) (t : Fin cfg1.N) :
    (dat1 V c).flushed 4 t = ((cfg1.win 4).blk t).view.read (Elt Ideal) (G2 V c) := by
  show (cfg1.win 4).cut (grid1.coords t) ((dat1 V c).after 4 t) = _
  rw [after1_4]
  unfold out1_4
  rw [View.canon_unit_zero zeros2']
  simp only [View.ld_unit_zero (S := S5000x16) zeros2', View.ld_unit_zero (S := S1x40) zeros2']
  obtain ⟨e00, e01, e10, e11, -, -, -, e30, e31, e41, -⟩ := idx_facts1 t
  funext j
  obtain ⟨p, q, rfl⟩ : ∃ (p : Fin 5000) (q : Fin 40), j = ix2 p q := ⟨j 0, j 1, eq_ix2 j⟩
  show k1_pay1 (iblk1 V c 0 t) (iblk1 V c 1 t) (View.ld (iblk1 V c 2 t) r1_1) (View.ld (iblk1 V c 2 t) r1_2) (iblk1 V c 3 t) (ix2 p q)
    = G2 V c (((cfg1.win 4).blk t).view.emb (ix2 p q))
  refine (Entries.pay2_apply _ _ _ _ _ p q).trans ?_
  unfold G2 Cert.Cheb.layer2
  have hq : (((cfg1.win 4).blk t).view.emb (ix2 p q)) 1 = q :=
    Fin.ext (by show win1_4.index t (1 : Fin 2) * 40 + 1 * q.val = q.val; omega)
  rw [hq]
  refine Cert.Cheb.logSoftmax_row _ _ p _ (fun k' => ?_) q
  refine Cert.Cheb.lin_congr _ _ _ _ _ _ _ _ _ _ p _ (fun k => ?_) (fun k => ?_) (fun k c' => w2_slice0 V c t k c')
    (fun k c' => w2_slice1 V c t k c') (fun c' => ?_) k'
  · show V c main_v48 (((cfg1.win 0).blk t).view.emb (ix2 p k)) = V c main_v48 (ix2 ((((cfg1.win 4).blk t).view.emb (ix2 p q)) 0) k)
    have h : ((cfg1.win 0).blk t).view.emb (ix2 p k) = ix2 ((((cfg1.win 4).blk t).view.emb (ix2 p q)) 0) k := by
      funext a; apply Fin.ext
      match a with
      | ⟨0, _⟩ => show win1_0.index t (0 : Fin 2) * 5000 + 1 * p.val = win1_4.index t (0 : Fin 2) * 5000 + 1 * p.val; omega
      | ⟨1, _⟩ => show win1_0.index t (1 : Fin 2) * 16 + 1 * k.val = k.val; omega
    exact congrArg (V c main_v48) h
  · show V c main_v64 (((cfg1.win 1).blk t).view.emb (ix2 p k)) = V c main_v64 (ix2 ((((cfg1.win 4).blk t).view.emb (ix2 p q)) 0) k)
    have h : ((cfg1.win 1).blk t).view.emb (ix2 p k) = ix2 ((((cfg1.win 4).blk t).view.emb (ix2 p q)) 0) k := by
      funext a; apply Fin.ext
      match a with
      | ⟨0, _⟩ => show win1_1.index t (0 : Fin 2) * 5000 + 1 * p.val = win1_4.index t (0 : Fin 2) * 5000 + 1 * p.val; omega
      | ⟨1, _⟩ => show win1_1.index t (1 : Fin 2) * 16 + 1 * k.val = k.val; omega
    exact congrArg (V c main_v64) h
  · show V c main_v65 (((cfg1.win 3).blk t).view.emb (ix2 (0 : Fin 1) c')) = V c main_v65 (ix2 (0 : Fin 1) c')
    have h : ((cfg1.win 3).blk t).view.emb (ix2 (0 : Fin 1) c') = ix2 (0 : Fin 1) c' := by
      funext a; apply Fin.ext
      match a with
      | ⟨0, _⟩ => show win1_3.index t (0 : Fin 2) * 1 + 1 * 0 = 0; omega
      | ⟨1, _⟩ => show win1_3.index t (1 : Fin 2) * 40 + 1 * c'.val = c'.val; omega
    rw [h]

/-- An index of the result array is in point `t`'s block iff its row is among that block's rows. -/
theorem mem_blk2 (t : Fin cfg1.N) (i : S100000x40.Idx) :
    i ∈ ((cfg1.win 4).blk t).view.set ↔ ∀ a : Fin 2, win1_4.index t a * S5000x40.size a ≤ (i a).val
      ∧ (i a).val < win1_4.index t a * S5000x40.size a + S5000x40.size a := by
  show i ∈ ((View.whole main_v66).slice (win1_4.rect t)).set ↔ _
  rw [View.set_slice_whole, Rect.mem_set_unit]
  exact Iff.rfl

/-- Every index of the result array is in the block of the point its row falls to. -/
theorem cover2 (i : S100000x40.Idx) : ∃ t : Fin cfg1.N, (cfg1.win 4).flush t = true ∧ i ∈ ((cfg1.win 4).blk t).view.set := by
  have hi0 : (i 0).val < 100000 := (i 0).isLt
  have hi1 : (i 1).val < 40 := (i 1).isLt
  have hN : cfg1.N = 20 := N_1
  let t : Fin cfg1.N := ⟨(i 0).val / 5000, by rw [hN]; omega⟩
  obtain ⟨-, -, -, -, -, -, -, -, -, e41, e40⟩ := idx_facts1 t
  have e40' : win1_4.index t (0 : Fin 2) = (i 0).val / 5000 := e40
  refine ⟨t, flush1_4 t, ?_⟩
  rw [mem_blk2]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 40 ≤ (i 1).val ∧ (i 1).val < win1_4.index t (1 : Fin 2) * 40 + 40; omega

/-- THE RESULT ARRAY after the region: the second layer of the arrays the region found. -/
theorem final2 (c : Dev nD) : (dat1 V c).arrAt 4 cfg1.N = G2 V c :=
  (dat1 V c).arrAt_eq_of_cover 4 (G2 V c) (fun t _ => flushed2_eq V c t) cover2

end Cert.KernelIdeal.Arrays

end
-- ==== Proof.RefLayers.lean ====
/-
  The reference, read as the two layers.

  The reference forms the propagated features `tx` by gather, scale and scatter-add on the host, then the first
  layer `h = max (x · w1[0] + tx · w1[1] + b1) 0` with two whole-array products, then the propagated `th` of `h` the
  same way, then the second layer's sum `h · w2[0] + th · w2[1] + b2` and its log-softmax along the rows (a maximum
  reduction from minus infinity joined once more with minus infinity, the shifted rows, their exponentials' sums from
  zero, the logarithm). Read entry by entry — a product as a sum over the contracted coordinate, a weight slice
  `w[j]` reshaped to a matrix at `(k, c)` as `w (j, k, c)`, a bias repeated down the rows at column `c` as `b c` —
  these are `layer1` and `layer2` of the arrays the reference itself builds.
-/
import proofs.«105451_j7876970020888_1_alg».proof.Proof.RefRead
import proofs.«105451_j7876970020888_1_alg».proof.Proof.Layers

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S100000x64, .f32⟩ : BufTy).Contents (Elt Ideal)) (x1 : (⟨S1600000, .f32⟩ : BufTy).Contents (Elt Ideal))
  (x2 : (⟨S2x64x16, .f32⟩ : BufTy).Contents (Elt Ideal)) (x3 : (⟨S16, .f32⟩ : BufTy).Contents (Elt Ideal))
  (x4 : (⟨S2x16x40, .f32⟩ : BufTy).Contents (Elt Ideal)) (x5 : (⟨S40, .f32⟩ : BufTy).Contents (Elt Ideal))
  (x6 : (⟨S2x1600000, .i32⟩ : BufTy).Contents (Elt Ideal))

/-! ## The first layer -/

/-- Slice 0 of the first weight stack, reshaped to a matrix, at `(k, c)`. -/
theorem w1_slice0 (k : Fin 64) (c : Fin 16) : val_main_v48 (F := Ideal) x2 (ix2 k c) = x2 (ix3 (0 : Fin 2) k c) := by
  rw [val_main_v48_apply, val_main_v47_apply]
  refine congrArg x2 (funext fun a => Fin.ext ?_)
  match a with
  | ⟨0, _⟩ => rfl
  | ⟨1, _⟩ => show (k.val * 16 + c.val) / 16 % 64 = k.val; have := k.isLt; have := c.isLt; omega
  | ⟨2, _⟩ => show (k.val * 16 + c.val) % 16 = c.val; have := c.isLt; omega

/-- Slice 1 of the first weight stack, reshaped to a matrix, at `(k, c)`. -/
theorem w1_slice1 (k : Fin 64) (c : Fin 16) : val_main_v51 (F := Ideal) x2 (ix2 k c) = x2 (ix3 (1 : Fin 2) k c) := by
  rw [val_main_v51_apply, val_main_v50_apply]
  refine congrArg x2 (funext fun a => Fin.ext ?_)
  match a with
  | ⟨0, _⟩ => rfl
  | ⟨1, _⟩ => show (k.val * 16 + c.val) / 16 % 64 = k.val; have := k.isLt; have := c.isLt; omega
  | ⟨2, _⟩ => show (k.val * 16 + c.val) % 16 = c.val; have := c.isLt; omega

/-- The first bias repeated down the rows, at `(r, c)`. -/
theorem b1_rows (r : Fin 100000) (c : Fin 16) : val_main_v55 (F := Ideal) x3 (ix2 r c) = x3 (ix1 c) := by
  rw [val_main_v55_apply, val_main_v54_apply]
  exact congrArg x3 (funext fun a => Fin.ext (by match a with | ⟨0, _⟩ => rfl))

/-- THE REFERENCE'S HIDDEN ARRAY is the first layer of `x` and of the propagated features it builds. -/
theorem layer1_eq : val_main_v57 (F := Ideal) x0 x1 x2 x3 x6
    = Cert.Cheb.layer1 (M := 100000) (K := 64) (N := 16) x0 (val_main_v46 (F := Ideal) x0 x1 x6) x2 x3 := by
  funext i
  obtain ⟨r, c, rfl⟩ : ∃ (r : Fin 100000) (c : Fin 16), i = ix2 r c := ⟨i 0, i 1, eq_ix2 i⟩
  rw [val_main_v57_apply, val_main_v56_apply, val_main_v53_apply, val_main_v49_apply, val_main_v52_apply,
    val_main_call1_v0_apply, val_main_call1_cst_apply, b1_rows]
  unfold Cert.Cheb.layer1 Cert.Cheb.lin
  refine congrArg₂ max (congrArg₂ (· + ·) (congrArg₂ (· + ·) (Finset.sum_congr rfl fun k _ => ?_)
    (Finset.sum_congr rfl fun k _ => ?_)) rfl) rfl
  · have e1 : lidx_main_v49 (ix2 r c) k = ix2 r k :=
      funext fun a => Fin.ext (by match a with | ⟨0, _⟩ => rfl | ⟨1, _⟩ => rfl)
    have e2 : ridx_main_v49 (ix2 r c) k = ix2 k c :=
      funext fun a => Fin.ext (by match a with | ⟨0, _⟩ => rfl | ⟨1, _⟩ => rfl)
    rw [e1, e2, w1_slice0]
  · have e1 : lidx_main_v52 (ix2 r c) k = ix2 r k :=
      funext fun a => Fin.ext (by match a with | ⟨0, _⟩ => rfl | ⟨1, _⟩ => rfl)
    have e2 : ridx_main_v52 (ix2 r c) k = ix2 k c :=
      funext fun a => Fin.ext (by match a with | ⟨0, _⟩ => rfl | ⟨1, _⟩ => rfl)
    rw [e1, e2, w1_slice1]

/-! ## The second layer -/

/-- Slice 0 of the second weight stack, reshaped to a matrix, at `(k, c)`. -/
theorem w2_slice0 (k : Fin 16) (c : Fin 40) : val_main_v75 (F := Ideal) x4 (ix2 k c) = x4 (ix3 (0 : Fin 2) k c) := by
  rw [val_main_v75_apply, val_main_v74_apply]
  refine congrArg x4 (funext fun a => Fin.ext ?_)
  match a with
  | ⟨0, _⟩ => rfl
  | ⟨1, _⟩ => show (k.val * 40 + c.val) / 40 % 16 = k.val; have := k.isLt; have := c.isLt; omega
  | ⟨2, _⟩ => show (k.val * 40 + c.val) % 40 = c.val; have := c.isLt; omega

/-- Slice 1 of the second weight stack, reshaped to a matrix, at `(k, c)`. -/
theorem w2_slice1 (k : Fin 16) (c : Fin 40) : val_main_v78 (F := Ideal) x4 (ix2 k c) = x4 (ix3 (1 : Fin 2) k c) := by
  rw [val_main_v78_apply, val_main_v77_apply]
  refine congrArg x4 (funext fun a => Fin.ext ?_)
  match a with
  | ⟨0, _⟩ => rfl
  | ⟨1, _⟩ => show (k.val * 40 + c.val) / 40 % 16 = k.val; have := k.isLt; have := c.isLt; omega
  | ⟨2, _⟩ => show (k.val * 40 + c.val) % 40 = c.val; have := c.isLt; omega

/-- The second bias repeated down the rows, at `(r, c)`. -/
theorem b2_rows (r : Fin 100000) (c : Fin 40) : val_main_v82 (F := Ideal) x5 (ix2 r c) = x5 (ix1 c) := by
  rw [val_main_v82_apply, val_main_v81_apply]
  exact congrArg x5 (funext fun a => Fin.ext (by match a with | ⟨0, _⟩ => rfl))

/-- The second layer's sum, at `(r, c)`. -/
theorem pre2_apply (r : Fin 100000) (c : Fin 40) :
    val_main_v83 (F := Ideal) x0 x1 x2 x3 x4 x5 x6 (ix2 r c)
      = Cert.Cheb.lin (Cert.Cheb.rows (M := 100000) (K := 16) (val_main_v57 (F := Ideal) x0 x1 x2 x3 x6))
          (Cert.Cheb.rows (M := 100000) (K := 16) (val_main_v73 (F := Ideal) x0 x1 x2 x3 x6))
          (Cert.Cheb.slice (K := 16) (N := 40) x4 0) (Cert.Cheb.slice (K := 16) (N := 40) x4 1)
          (Cert.Cheb.coords (N := 40) x5) r c := by
  rw [val_main_v83_apply, val_main_v80_apply, val_main_v76_apply, val_main_v79_apply, b2_rows]
  unfold Cert.Cheb.lin
  refine congrArg₂ (· + ·) (congrArg₂ (· + ·) (Finset.sum_congr rfl fun k _ => ?_)
    (Finset.sum_congr rfl fun k _ => ?_)) rfl
  · have e1 : lidx_main_v76 (ix2 r c) k = ix2 r k :=
      funext fun a => Fin.ext (by match a with | ⟨0, _⟩ => rfl | ⟨1, _⟩ => rfl)
    have e2 : ridx_main_v76 (ix2 r c) k = ix2 k c :=
      funext fun a => Fin.ext (by match a with | ⟨0, _⟩ => rfl | ⟨1, _⟩ => rfl)
    rw [e1, e2, w2_slice0]
  · have e1 : lidx_main_v79 (ix2 r c) k = ix2 r k :=
      funext fun a => Fin.ext (by match a with | ⟨0, _⟩ => rfl | ⟨1, _⟩ => rfl)
    have e2 : ridx_main_v79 (ix2 r c) k = ix2 k c :=
      funext fun a => Fin.ext (by match a with | ⟨0, _⟩ => rfl | ⟨1, _⟩ => rfl)
    rw [e1, e2, w2_slice1]

/-- The place of row `r`, column `k` along the reduced axis. -/
theorem lift_row (h : S100000x40.Reduces [1] S100000) (r : Fin 100000) (k : Fin 40) :
    h.lift (ix1 r) k = ix2 r k :=
  funext fun a => Fin.ext (by match a with | ⟨0, _⟩ => rfl | ⟨1, _⟩ => rfl)

/-- The row maximum as the reference takes it, repeated across the columns, at `(r, k)`. -/
theorem rowmax_apply (r : Fin 100000) (k : Fin 40) :
    val_main_call2_v4 (F := Ideal) x0 x1 x2 x3 x4 x5 x6 (ix2 r k)
      = Cert.Cheb.rowMax (Cert.Cheb.rows (M := 100000) (K := 40) (val_main_v83 (F := Ideal) x0 x1 x2 x3 x4 x5 x6)) r := by
  rw [val_main_call2_v4_apply, val_main_call2_v3_apply, val_main_call2_v2_apply, val_main_call2_v1_apply,
    val_main_call2_cst_0_apply]
  unfold val_main_call2_v0 Cert.Cheb.rowMax
  refine congrArg (max _) ?_
  have hj : idx_main_call2_v3 (idx_main_call2_v4 (ix2 r k)) = ix1 r :=
    funext fun a => Fin.ext (by match a with | ⟨0, _⟩ => rfl)
  rw [hj]
  have hr : S100000x40.Reduces [1] S100000 := by decide
  refine (Host.reduce_eq_fold_single (FloatOps.maximumf (F := Ideal) (φ := .f32))
    (val_main_v83 (F := Ideal) x0 x1 x2 x3 x4 x5 x6 : FVec Ideal S100000x40 .f32) (val_main_call2_cst (F := Ideal))
    reducesTo_S100000x40_S100000_d1 hr h_S_ (ix1 r)).trans ?_
  exact congrArg (fun f => Finset.fold max (Ideal.ofBits .f32 0xFF800000#32) f (Finset.univ : Finset (Fin 40)))
    (funext fun k' => congrArg (val_main_v83 (F := Ideal) x0 x1 x2 x3 x4 x5 x6) (lift_row hr r k'))

/-- The shifted rows, at `(r, k)`. -/
theorem shifted_apply (r : Fin 100000) (k : Fin 40) :
    val_main_call2_v5 (F := Ideal) x0 x1 x2 x3 x4 x5 x6 (ix2 r k)
      = val_main_v83 (F := Ideal) x0 x1 x2 x3 x4 x5 x6 (ix2 r k)
        - Cert.Cheb.rowMax (Cert.Cheb.rows (M := 100000) (K := 40) (val_main_v83 (F := Ideal) x0 x1 x2 x3 x4 x5 x6)) r := by
  rw [val_main_call2_v5_apply, rowmax_apply]
  rfl

/-- THE REFERENCE'S RESULT is the second layer of the hidden array and of its propagated copy. -/
theorem layer2_eq : val_main_v84 (F := Ideal) x0 x1 x2 x3 x4 x5 x6
    = Cert.Cheb.layer2 (M := 100000) (K := 16) (N := 40) (val_main_v57 (F := Ideal) x0 x1 x2 x3 x6)
        (val_main_v73 (F := Ideal) x0 x1 x2 x3 x6) x4 x5 := by
  funext i
  obtain ⟨r, c, rfl⟩ : ∃ (r : Fin 100000) (c : Fin 40), i = ix2 r c := ⟨i 0, i 1, eq_ix2 i⟩
  have hlog : val_main_call2_v10 (F := Ideal) x0 x1 x2 x3 x4 x5 x6 (ix2 r c)
      = Ideal.log (∑ k : Fin 40, Ideal.exp (val_main_v83 (F := Ideal) x0 x1 x2 x3 x4 x5 x6 (ix2 r k)
          - Cert.Cheb.rowMax (Cert.Cheb.rows (M := 100000) (K := 40) (val_main_v83 (F := Ideal) x0 x1 x2 x3 x4 x5 x6)) r)) := by
    rw [val_main_call2_v10_apply, val_main_call2_v9_apply, val_main_call2_v8_apply, val_main_call2_v7_apply,
      val_main_call2_cst_1_apply]
    show Ideal.log (Ideal.ofBits .f32 0x00000000#32 + _) = _
    rw [Ideal.ofBits_zero_f32, zero_add]
    refine congrArg Ideal.log (Finset.sum_congr rfl fun k _ => ?_)
    have hk : idx_main_call2_v7 (idx_main_call2_v8 (idx_main_call2_v10 (ix2 r c))) k = ix2 r k :=
      funext fun a => Fin.ext (by match a with | ⟨0, _⟩ => rfl | ⟨1, _⟩ => rfl)
    rw [hk, val_main_call2_v6_apply, shifted_apply]
    rfl
  rw [val_main_v84_apply, shifted_apply, hlog]
  show _ = Cert.Cheb.logSoftmax _ r c
  unfold Cert.Cheb.logSoftmax
  have hrow : ∀ k : Fin 40, val_main_v83 (F := Ideal) x0 x1 x2 x3 x4 x5 x6 (ix2 r k)
      = Cert.Cheb.lin (Cert.Cheb.rows (M := 100000) (K := 16) (val_main_v57 (F := Ideal) x0 x1 x2 x3 x6))
          (Cert.Cheb.rows (M := 100000) (K := 16) (val_main_v73 (F := Ideal) x0 x1 x2 x3 x6))
          (Cert.Cheb.slice (K := 16) (N := 40) x4 0) (Cert.Cheb.slice (K := 16) (N := 40) x4 1)
          (Cert.Cheb.coords (N := 40) x5) r k := fun k => pre2_apply x0 x1 x2 x3 x4 x5 x6 r k
  have hmax : Cert.Cheb.rowMax (Cert.Cheb.rows (M := 100000) (K := 40) (val_main_v83 (F := Ideal) x0 x1 x2 x3 x4 x5 x6)) r
      = Cert.Cheb.rowMax (Cert.Cheb.lin (Cert.Cheb.rows (M := 100000) (K := 16) (val_main_v57 (F := Ideal) x0 x1 x2 x3 x6))
          (Cert.Cheb.rows (M := 100000) (K := 16) (val_main_v73 (F := Ideal) x0 x1 x2 x3 x6))
          (Cert.Cheb.slice (K := 16) (N := 40) x4 0) (Cert.Cheb.slice (K := 16) (N := 40) x4 1)
          (Cert.Cheb.coords (N := 40) x5)) r := by
    unfold Cert.Cheb.rowMax
    exact congrArg (max _) (congrArg (fun f => Finset.fold max _ f Finset.univ) (funext fun k => hrow k))
  rw [hmax]
  simp only [hrow]
  rfl

end Cert.ReferenceIdeal.RefValue

end
-- ==== Proof.KernelValue.lean ====
/-
  The idealized kernel's result array, named.

  Between the launch and the first region the host computes, from the edge list and the edge weights, the normalised
  edge coefficients and with them the propagated features `tx` of `x` (gather, scale, scatter-add), and views the first
  bias as a row. The first region leaves the hidden array `h`, the first layer of `x`, `tx`, the first weight stack and
  bias. Then the host propagates `h` the same way to `th` and views the second bias as a row, and the second region
  leaves the result: the second layer of `h`, `th`, the second weight stack and bias.
  The reference forms the same arrays by the same host operations and the same two layers, so the kernel's result array
  is the reference's own result term of the kernel's arguments (`result`).
-/
import proofs.«105451_j7876970020888_1_alg».proof.Proof.RunValue
import proofs.«105451_j7876970020888_1_alg».proof.Proof.Array1
import proofs.«105451_j7876970020888_1_alg».proof.Proof.Array2
import proofs.«105451_j7876970020888_1_alg».proof.Proof.RefLayers
import Idealize.ShloMosaic.Lib.StableHlo.Run
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The arguments as launched. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)

/-! ## What the first region finds -/

/-- The three operations of the outlined `where` (a copy, a broadcast of the zero, the selection), spelt at the buffers'
    own types: carrying contents to a buffer's declared type and back is the identity. -/
abbrev whereOps : List (HloOp τ sig (Elt Ideal)) :=
  [ StableHlo.unary main_cst_2 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.ternary main_v8 main_v11 main_call0_v1 main_v12 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]

theorem whereOps_eq : (hostOps0_1 : List (HloOp τ sig (Elt Ideal))) = whereOps := rfl

/-- The host operations up to the first region, over the launch contents. -/
abbrev stretch0 (c : Dev nD) : Valuation τ sig (Elt Ideal) :=
  StableHlo.after hostOps0_2 (StableHlo.after whereOps (StableHlo.after hostOps0 (W0 m ρ c)))

/-- It is what the first region finds. -/
theorem entry0 (c : Dev nD) (b : Ref sig .tc) : V3 m ρ c b = stretch0 m ρ c (Proc.devRef .tc b) := by
  show StableHlo.after hostOps0_2 (StableHlo.after hostOps0_1 (StableHlo.after hostOps0 (W0 m ρ c))) (Proc.devRef .tc b) = _
  rw [whereOps_eq]

theorem launch_x (c : Dev nD) : stretch0 m ρ c (Proc.devRef .tc main_arg0) = a0 m c := by
  after_results_simp <;> rfl
theorem launch_w1 (c : Dev nD) : stretch0 m ρ c (Proc.devRef .tc main_arg2) = a2 m c := by
  after_results_simp <;> rfl
theorem launch_w2 (c : Dev nD) : stretch0 m ρ c (Proc.devRef .tc main_arg4) = a4 m c := by
  after_results_simp <;> rfl
theorem launch_b2 (c : Dev nD) : stretch0 m ρ c (Proc.devRef .tc main_arg5) = a5 m c := by
  after_results_simp <;> rfl
theorem host_b1 (c : Dev nD) : stretch0 m ρ c (Proc.devRef .tc main_v47) = shapeCast S1x16 (a3 m c) shapeCasts_S16_S1x16 := by
  after_results_simp <;> rfl
/-- The propagated features are the reference's. -/
theorem host_tx (c : Dev nD) : stretch0 m ρ c (Proc.devRef .tc main_v46)
    = Cert.ReferenceIdeal.Read.val_main_v46 (F := Ideal) (a0 m c) (a1 m c) (a6 m c) := by
  after_results_simp <;> rfl
/-- The normalised edge coefficients, the sources and the destinations are the reference's. -/
theorem host_coeff (c : Dev nD) : stretch0 m ρ c (Proc.devRef .tc main_v30)
    = Cert.ReferenceIdeal.Read.val_main_v30 (F := Ideal) (a1 m c) (a6 m c) := by
  after_results_simp <;> rfl
theorem host_src (c : Dev nD) : stretch0 m ρ c (Proc.devRef .tc main_v1)
    = Cert.ReferenceIdeal.Read.val_main_v1 (F := Ideal) (a6 m c) := by
  after_results_simp <;> rfl
theorem host_dst (c : Dev nD) : stretch0 m ρ c (Proc.devRef .tc main_v3)
    = Cert.ReferenceIdeal.Read.val_main_v3 (F := Ideal) (a6 m c) := by
  after_results_simp <;> rfl

/-! ## After the first region -/

/-- THE HIDDEN ARRAY the first region leaves is the reference's. -/
theorem hidden (c : Dev nD) : W4 m ρ c (Proc.devRef .tc main_v48)
    = Cert.ReferenceIdeal.Read.val_main_v57 (F := Ideal) (a0 m c) (a1 m c) (a2 m c) (a3 m c) (a6 m c) := by
  refine (W4_arr m ρ c 4).trans ?_
  rw [Arrays.final1, Cert.ReferenceIdeal.RefValue.layer1_eq]
  unfold Arrays.G1
  have hb : (fun i : S16.Idx => V3 m ρ c main_v47 (ix2 (0 : Fin 1) (i 0))) = a3 m c := by
    funext i
    obtain ⟨q, rfl⟩ : ∃ q : Fin 16, i = ix1 q := ⟨i 0, eq_ix1 i⟩
    rw [entry0, host_b1]
    exact shapeCast_a_1a_apply _ _ 0 q
  rw [hb, entry0, entry0, entry0, launch_x, host_tx, launch_w1]

/-- A buffer the first region does not stage is as the host left it. -/
theorem past0 (c : Dev nD) (b : Ref sig .tc) (hb : ∀ w, Pipeline.arrRef spec0 w ≠ b) :
    W4 m ρ c (Proc.devRef .tc b) = stretch0 m ρ c (Proc.devRef .tc b) := (W4_of_ne m ρ c b hb).trans (entry0 m ρ c b)

/-! ## What the second region finds -/

theorem entry1_h (c : Dev nD) : V5 m ρ c main_v48
    = Cert.ReferenceIdeal.Read.val_main_v57 (F := Ideal) (a0 m c) (a1 m c) (a2 m c) (a3 m c) (a6 m c) := by
  show StableHlo.after hostOps1 (W4 m ρ c) (Proc.devRef .tc main_v48) = _
  after_results_simp
  exact hidden m ρ c

theorem entry1_w (c : Dev nD) : V5 m ρ c main_arg4 = a4 m c := by
  show StableHlo.after hostOps1 (W4 m ρ c) (Proc.devRef .tc main_arg4) = _
  after_results_simp
  exact (past0 m ρ c main_arg4 (by decide)).trans (launch_w2 m ρ c)

theorem entry1_b (c : Dev nD) : V5 m ρ c main_v65 = shapeCast S1x40 (a5 m c) shapeCasts_S40_S1x40 := by
  show StableHlo.after hostOps1 (W4 m ρ c) (Proc.devRef .tc main_v65) = _
  after_results_simp
  rw [past0 m ρ c main_arg5 (by decide), launch_b2]
  rfl

/-- The propagated hidden array is the reference's. -/
theorem entry1_th (c : Dev nD) : V5 m ρ c main_v64
    = Cert.ReferenceIdeal.Read.val_main_v73 (F := Ideal) (a0 m c) (a1 m c) (a2 m c) (a3 m c) (a6 m c) := by
  show StableHlo.after hostOps1 (W4 m ρ c) (Proc.devRef .tc main_v64) = _
  after_results_simp
  rw [hidden, past0 m ρ c main_v30 (by decide), past0 m ρ c main_v1 (by decide), past0 m ρ c main_v3 (by decide),
    host_coeff, host_src, host_dst]
  rfl

/-! ## The result -/

/-- THE RESULT ARRAY the second region leaves is the reference's result term of the kernel's arguments. -/
theorem result (c : Dev nD) : W6 m ρ c (Proc.devRef .tc main_v66)
    = Cert.ReferenceIdeal.Read.val_main_v84 (F := Ideal) (a0 m c) (a1 m c) (a2 m c) (a3 m c) (a4 m c) (a5 m c) (a6 m c) := by
  refine (W6_arr m ρ c 4).trans ?_
  rw [Arrays.final2, Cert.ReferenceIdeal.RefValue.layer2_eq]
  unfold Arrays.G2
  have hb : (fun i : S40.Idx => V5 m ρ c main_v65 (ix2 (0 : Fin 1) (i 0))) = a5 m c := by
    funext i
    obtain ⟨q, rfl⟩ : ∃ q : Fin 40, i = ix1 q := ⟨i 0, eq_ix1 i⟩
    show V5 m ρ c main_v65 (ix2 (0 : Fin 1) q) = _
    rw [entry1_b]
    exact shapeCast_a_1a_apply _ _ 0 q
  rw [hb, entry1_h, entry1_th, entry1_w]

end Cert.KernelIdeal.KernelValue

end
-- ==== Proof.lean ====
/-
  A two-layer Chebyshev graph convolution of order two on 100000 nodes: the kernel against its jnp reference, over
  the extended reals.

  Both programs form the normalised edge coefficients and the propagated features on the host (gather, scale,
  scatter-add) by the same operations. The kernel then computes each layer — `x · w[0] + tx · w[1] + b`, clamped at
  zero in the first layer, followed by a log-softmax along the rows in the second — row block by row block, 5000 rows at
  a grid point, with its matrix operands passed through a narrower float format on the way (the identity over the
  extended reals); the reference computes each layer with whole-array products. An entry of either layer depends on one
  row of its inputs only, so the blocks the kernel writes back are the blocks of the reference's arrays, and the two
  programs end with the same result, entry by entry. No law beyond reading both sides at an entry is used, so the
  precondition is never opened.

  The three frames: the two kernel programs' are the generated frame certificates; the reference has no kernel, and its
  frame is its run with the result dropped. The ideal pass rewrote nothing, so `preserves` is `True`.
-/
import proofs.«105451_j7876970020888_1_alg».proof.Defs
import proofs.«105451_j7876970020888_1_alg».proof.Proof.Gen.Kernel
import proofs.«105451_j7876970020888_1_alg».proof.Proof.Gen.Kernel.Skeleton
import proofs.«105451_j7876970020888_1_alg».proof.Proof.Gen.Kernel.Launch
import proofs.«105451_j7876970020888_1_alg».proof.Proof.Gen.Kernel.Points
import proofs.«105451_j7876970020888_1_alg».proof.Proof.Gen.Kernel.Frame
import proofs.«105451_j7876970020888_1_alg».proof.Proof.Gen.KernelIdeal
import proofs.«105451_j7876970020888_1_alg».proof.Proof.Gen.KernelIdeal.Skeleton
import proofs.«105451_j7876970020888_1_alg».proof.Proof.Gen.KernelIdeal.Launch
import proofs.«105451_j7876970020888_1_alg».proof.Proof.Gen.KernelIdeal.Points
import proofs.«105451_j7876970020888_1_alg».proof.Proof.Gen.KernelIdeal.Frame
import proofs.«105451_j7876970020888_1_alg».proof.Proof.Gen.ReferenceIdeal
import proofs.«105451_j7876970020888_1_alg».proof.Proof.Gen.Pre_finite_inputs
import proofs.«105451_j7876970020888_1_alg».proof.Proof.RefRun
import proofs.«105451_j7876970020888_1_alg».proof.Proof.RefRead
import proofs.«105451_j7876970020888_1_alg».proof.Proof.RunValue
import proofs.«105451_j7876970020888_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result term of the (agreeing) arguments in their result arrays. -/
theorem algebraic : Cert.algebraic_KernelIdeal_ReferenceIdeal := by
  intro m ρ m' ρ' _ hagree
  refine ⟨fun c => Cert.ReferenceIdeal.Read.val_main_v84 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.result m ρ c), (h c).2⟩)
      (Cert.KernelIdeal.RunValue.run_main (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5, h6⟩ := hagree c
    rw [(h c).1, Cert.ReferenceIdeal.Read.val_main_v84_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
